-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S128x40 : Shape := ⟨2, ![128, 40]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x40, .f32⟩
  | .hbm, ⟨65, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S40x128, .f32⟩
  | .local _ .vmem, ⟨14, _⟩ => ⟨S40x128, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x128.size a ≤ S40x128.size a
  hwx1_2 : ∀ i : grid1.Coords, EltTy.bits .f32 = 32 ∨ (Rect.block (s := S40x128) S40x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x128.size a ≤ S40x128.size a
  hwx1_3 : ∀ i : grid1.Coords, EltTy.bits .f32 = 32 ∨ (Rect.block (s := S40x128) S40x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S40x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x40, .f32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | .hbm, ⟨78, _⟩ => ⟨S128x40, .f32⟩
  | .hbm, ⟨79, _⟩ => ⟨S50000x40, .f32⟩
  | .hbm, ⟨80, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.SageSpec.lean ====
/-
  One SAGE layer with mean aggregation, as a function of arrays on the extended reals.

  For a node `p` and an output feature `q` the layer's pre-activation is
      ∑ₖ A(p,k)·Wl(q,k)  +  ∑ₖ X(p,k)·Wr(q,k)  +  B(0,q)
  where `A` holds the aggregated neighbour features, `X` the node's own features, `Wl` and `Wr` the two weight
  matrices stored output-feature-major (so the contraction runs along the rows of both operands) and `B` the bias as
  a one-row matrix. The hidden layer takes the maximum with zero; the output layer is the pre-activation itself.

  The number of rows is a parameter: a block of 5000 nodes and the whole array of 50000 nodes are the same formula, and
  a block of the whole-array formula is the formula of the blocks (`rowDot_congr`, `pre_congr`).
-/
import Idealize.ShloMosaic.PureOps.Ideal
import Idealize.ShloMosaic.Lib.ValueIdx
import Idealize.ShloMosaic.Lib.ValueLayout

noncomputable section

open scoped BigOperators

namespace Cert.Sage

open Idealize.ShloMosaic Idealize.ShloMosaic.ValueIdx

/-- Row `p` of `A` against row `q` of `W`, over the 128 input features. -/
def rowDot {a b : Nat} (A : (⟨2, ![a, 128]⟩ : Shape).Idx → EReal) (W : (⟨2, ![b, 128]⟩ : Shape).Idx → EReal)
    (p : Fin a) (q : Fin b) : EReal :=
  ∑ k : Fin 128, A (ix2 p k) * W (ix2 q k)

/-- The layer before its activation, at node `p` and output feature `q`. -/
def pre {a b : Nat} (A X : (⟨2, ![a, 128]⟩ : Shape).Idx → EReal) (Wl Wr : (⟨2, ![b, 128]⟩ : Shape).Idx → EReal)
    (B : (⟨2, ![1, b]⟩ : Shape).Idx → EReal) (p : Fin a) (q : Fin b) : EReal :=
  (rowDot A Wl p q + rowDot X Wr p q) + B (ix2 (0 : Fin 1) q)

/-- The hidden layer over all nodes: the pre-activation cut off below at zero (the zero as the float pattern both
    programs print). -/
def hidden (A X : (⟨2, ![50000, 128]⟩ : Shape).Idx → EReal) (Wl Wr : (⟨2, ![128, 128]⟩ : Shape).Idx → EReal)
    (B : (⟨2, ![1, 128]⟩ : Shape).Idx → EReal) : (⟨2, ![50000, 128]⟩ : Shape).Idx → EReal :=
  fun i => max (pre A X Wl Wr B (i 0) (i 1)) (Ideal.ofBits .f32 0x00000000#32)

/-- The output layer over all nodes: 40 features, no activation. -/
def output (A X : (⟨2, ![50000, 128]⟩ : Shape).Idx → EReal) (Wl Wr : (⟨2, ![40, 128]⟩ : Shape).Idx → EReal)
    (B : (⟨2, ![1, 40]⟩ : Shape).Idx → EReal) : (⟨2, ![50000, 40]⟩ : Shape).Idx → EReal :=
  fun i => pre A X Wl Wr B (i 0) (i 1)

/-- A row product only reads row `p` of its left operand and row `q` of its right one: operands that agree on those
    two rows (possibly at other row numbers `p'`, `q'` of larger arrays) give the same product. -/
theorem rowDot_congr {a a' b b' : Nat} (A : (⟨2, ![a, 128]⟩ : Shape).Idx → EReal) (A' : (⟨2, ![a', 128]⟩ : Shape).Idx → EReal)
    (W : (⟨2, ![b, 128]⟩ : Shape).Idx → EReal) (W' : (⟨2, ![b', 128]⟩ : Shape).Idx → EReal)
    (p : Fin a) (p' : Fin a') (q : Fin b) (q' : Fin b')
    (hA : ∀ k : Fin 128, A (ix2 p k) = A' (ix2 p' k)) (hW : ∀ k : Fin 128, W (ix2 q k) = W' (ix2 q' k)) :
    rowDot A W p q = rowDot A' W' p' q' := by
  unfold rowDot
  exact Finset.sum_congr rfl fun k _ => by rw [hA k, hW k]

/-- The same for the whole pre-activation: it reads row `p` of `A` and `X`, row `q` of the two weight matrices and
    entry `q` of the bias row, and nothing else. This is what makes a block of the whole-array formula the formula of
    the blocks. -/
theorem pre_congr {a a' b b' : Nat} (A X : (⟨2, ![a, 128]⟩ : Shape).Idx → EReal) (A' X' : (⟨2, ![a', 128]⟩ : Shape).Idx → EReal)
    (Wl Wr : (⟨2, ![b, 128]⟩ : Shape).Idx → EReal) (Wl' Wr' : (⟨2, ![b', 128]⟩ : Shape).Idx → EReal)
    (B : (⟨2, ![1, b]⟩ : Shape).Idx → EReal) (B' : (⟨2, ![1, b']⟩ : Shape).Idx → EReal)
    (p : Fin a) (p' : Fin a') (q : Fin b) (q' : Fin b')
    (hA : ∀ k : Fin 128, A (ix2 p k) = A' (ix2 p' k)) (hX : ∀ k : Fin 128, X (ix2 p k) = X' (ix2 p' k))
    (hWl : ∀ k : Fin 128, Wl (ix2 q k) = Wl' (ix2 q' k)) (hWr : ∀ k : Fin 128, Wr (ix2 q k) = Wr' (ix2 q' k))
    (hB : B (ix2 (0 : Fin 1) q) = B' (ix2 (0 : Fin 1) q')) :
    pre A X Wl Wr B p q = pre A' X' Wl' Wr' B' p' q' := by
  unfold pre
  rw [rowDot_congr A A' Wl Wl' p p' q q' hA hWl, rowDot_congr X X' Wr Wr' p p' q q' hX hWr, hB]

/-- A bias vector as the one-row matrix the layer formula reads: entry `(0, q)` is the vector's entry `q`. -/
def asRow {b : Nat} (v : (⟨1, ![b]⟩ : Shape).Idx → EReal) : (⟨2, ![1, b]⟩ : Shape).Idx → EReal :=
  fun j => v (ix1 (j 1))

/-- Reshaping a vector of `b` entries to a `1 × b` matrix is that row. -/
theorem shapeCast_row {b : Nat} (v : (⟨1, ![b]⟩ : Shape).Idx → EReal) (h : (⟨1, ![b]⟩ : Shape).ShapeCasts ⟨2, ![1, b]⟩) :
    shapeCast ⟨2, ![1, b]⟩ v h = asRow v := by
  funext j
  obtain ⟨u, i, rfl⟩ : ∃ (u : Fin 1) (i : Fin b), j = ix2 u i := ⟨j 0, j 1, eq_ix2 j⟩
  exact shapeCast_a_1a_apply v h u i

/-- Adding the bias before or after the second product is the same sum: addition on the extended reals is
    commutative and associative (no finiteness is needed for that). -/
theorem pre_bias_first {a b : Nat} (A X : (⟨2, ![a, 128]⟩ : Shape).Idx → EReal) (Wl Wr : (⟨2, ![b, 128]⟩ : Shape).Idx → EReal)
    (B : (⟨2, ![1, b]⟩ : Shape).Idx → EReal) (p : Fin a) (q : Fin b) :
    (rowDot A Wl p q + B (ix2 (0 : Fin 1) q)) + rowDot X Wr p q = pre A X Wl Wr B p q := by
  unfold pre
  exact add_right_comm _ _ _

end Cert.Sage

end
-- ==== Proof.BodyValue.lean ====
/-
  The two kernel bodies as arithmetic, read at one element of the output block.

  Each body loads a block of 5000 rows of the aggregated features and of the node features, the two weight
  matrices whole and the bias row, rounds the four matrices to bf16 (the identity on extended reals), multiplies each
  block by the transpose of its weight matrix into a zero accumulator, adds the two products, adds the bias row
  broadcast down the rows, and — in the first layer only — takes the maximum with zero. At `(p, q)` that is the
  layer's pre-activation `Cert.Sage.pre` of the loaded blocks (cut off at zero in the first layer).

  The matrix product at an index is the sum over the one contracted axis; its proof re-indexes the contraction's sum
  through the one-axis bijection, as for a host `dot_general`.
-/
import proofs.«181914_j8761733284693_1_alg».proof.Proof.Gen.KernelIdeal.Skeleton
import proofs.«181914_j8761733284693_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SageBody

open Cert.KernelIdeal Cert.KernelIdeal.Gen Idealize.ShloMosaic Idealize.ShloMosaic.ValueIdx

/-! ### The block product into 128 output features -/

theorem lhs128_0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem rhs128_0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem rhs128_1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times the transposed 128-row weight matrix, into a zero accumulator, read at `(p, q)`: row `p`
    of the block against row `q` of the weights. The contraction index has one axis of extent 128; the transpose
    turns the weights' `(k, q)` back into `(q, k)`. -/
theorem matmul_rows128 (x : FVec Ideal S5000x128 .bf16) (w : FVec Ideal S128x128 .bf16) (p : Fin 5000) (q : Fin 128) :
    matmul dot_S5000x128_S128x128_S5000x128_1_0_0_1_n_n none x (transpose S128x128 [1, 0] w transposes_S128x128_p1_0_S128x128) (constant S5000x128 .f32 0x00000000#32) (ix2 p q)
      = Cert.Sage.rowDot x w p q := by
  simp only [matmul]
  rw [Ideal.matmul_constant_zero_apply, ← Equiv.sum_comp (contrEquiv1 dot_S5000x128_S128x128_S5000x128_1_0_0_1_n_n 128 rfl rfl).symm]
  unfold Cert.Sage.rowDot
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er, transpose_ix2_apply w transposes_S128x128_p1_0_S128x128 k q]

/-! ### The block product into 40 output features -/

theorem lhs40_0 (i : S5000x40.Idx) (c : dot_S5000x128_S128x40_S5000x40_1_0_0_1_n_n.contr.Idx) : (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (c : dot_S5000x128_S128x40_S5000x40_1_0_0_1_n_n.contr.Idx) : (dot_S5000x128_S128x40_S5000x40_1_0_0_1_n_n.lhsIdx i c 1).val = (c ⟨0, by decide⟩).val :=
  dot_S5000x128_S128x40_S5000x40_1_0_0_1_n_n.lhsIdx_val_of_single rfl i c
theorem rhs40_0 (i : S5000x40.Idx) (c : dot_S5000x128_S128x40_S5000x40_1_0_0_1_n_n.contr.Idx) : (dot_S5000x128_S128x40_S5000x40_1_0_0_1_n_n.rhsIdx i c 0).val = (c ⟨0, by decide⟩).val :=
  dot_S5000x128_S128x40_S5000x40_1_0_0_1_n_n.rhsIdx_val_of_single rfl i c
theorem rhs40_1 (i : S5000x40.Idx) (c : dot_S5000x128_S128x40_S5000x40_1_0_0_1_n_n.contr.Idx) : (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A block of 5000 rows times the transposed 40-row weight matrix, into a zero accumulator, read at `(p, q)`: row `p`
    of the block against row `q` of the weights. The contraction index has one axis of extent 128; the transpose
    turns the weights' `(k, q)` back into `(q, k)`. -/
theorem matmul_rows40 (x : FVec Ideal S5000x128 .bf16) (w : FVec Ideal S40x128 .bf16) (p : Fin 5000) (q : Fin 40) :
    matmul dot_S5000x128_S128x40_S5000x40_1_0_0_1_n_n none x (transpose S128x40 [1, 0] w transposes_S40x128_p1_0_S128x40) (constant S5000x40 .f32 0x00000000#32) (ix2 p q)
      = Cert.Sage.rowDot x w p q := by
  simp only [matmul]
  rw [Ideal.matmul_constant_zero_apply, ← Equiv.sum_comp (contrEquiv1 dot_S5000x128_S128x40_S5000x40_1_0_0_1_n_n 128 rfl rfl).symm]
  unfold Cert.Sage.rowDot
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs40_0 _ _
    | ⟨1, _⟩ => exact (lhs40_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs40_0 _ _).trans hk
    | ⟨1, _⟩ => exact rhs40_1 _ _)
  rw [el, er, transpose_ix2_apply w transposes_S40x128_p1_0_S128x40 k q]

/-! ### The two bodies at an element -/

/-- The first layer's body at `(p, q)`: the pre-activation of the loaded blocks, cut off below at zero. -/
theorem hidden_body_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (Cert.Sage.pre x0 x1 x2 x3 x4 p q) (Ideal.ofBits .f32 0x00000000#32) := by
  unfold k0_pay1
  dsimp only
  rw [shapeCast_self x0, shapeCast_self x4]
  show max ((matmul (F := Ideal) dot_S5000x128_S128x128_S5000x128_1_0_0_1_n_n none (truncf .bf16 x0 bitsLt_bf16_f32) (transpose S128x128 [1, 0] (truncf .bf16 x2 bitsLt_bf16_f32) transposes_S128x128_p1_0_S128x128) (constant S5000x128 .f32 0x00000000#32) (ix2 p q)
      + matmul (F := Ideal) dot_S5000x128_S128x128_S5000x128_1_0_0_1_n_n none (truncf .bf16 x1 bitsLt_bf16_f32) (transpose S128x128 [1, 0] (truncf .bf16 x3 bitsLt_bf16_f32) transposes_S128x128_p1_0_S128x128) (constant S5000x128 .f32 0x00000000#32) (ix2 p q))
      + broadcastTo S5000x128 x4 broadcasts_S1x128_S5000x128 (ix2 p q)) (Ideal.ofBits .f32 0x00000000#32) = _
  rw [matmul_rows128, matmul_rows128, broadcastTo_1b_ab_apply x4 broadcasts_S1x128_S5000x128 p q]
  rfl

/-- The second layer's body at `(p, q)`: the pre-activation of the loaded blocks. -/
theorem output_body_apply (x0 x1 : Vec Ideal S5000x128 .f32) (x2 x3 : Vec Ideal S40x128 .f32) (x4 : Vec Ideal S1x40 .f32)
    (p : Fin 5000) (q : Fin 40) :
    k1_pay1 (F := Ideal) x0 x1 x2 x3 x4 (ix2 p q) = Cert.Sage.pre x0 x1 x2 x3 x4 p q := by
  unfold k1_pay1
  dsimp only
  rw [shapeCast_self x0, shapeCast_self x1, shapeCast_self x4]
  show (matmul (F := Ideal) dot_S5000x128_S128x40_S5000x40_1_0_0_1_n_n none (truncf .bf16 x0 bitsLt_bf16_f32) (transpose S128x40 [1, 0] (truncf .bf16 x2 bitsLt_bf16_f32) transposes_S40x128_p1_0_S128x40) (constant S5000x40 .f32 0x00000000#32) (ix2 p q)
      + matmul (F := Ideal) dot_S5000x128_S128x40_S5000x40_1_0_0_1_n_n none (truncf .bf16 x1 bitsLt_bf16_f32) (transpose S128x40 [1, 0] (truncf .bf16 x3 bitsLt_bf16_f32) transposes_S40x128_p1_0_S128x40) (constant S5000x40 .f32 0x00000000#32) (ix2 p q))
      + broadcastTo S5000x40 x4 broadcasts_S1x40_S5000x40 (ix2 p q) = _
  rw [matmul_rows40, matmul_rows40, broadcastTo_1b_ab_apply x4 broadcasts_S1x40_S5000x40 p q]
  rfl

end Cert.KernelIdeal.SageBody

end
-- ==== Proof.RegionValue.lean ====
/-
  Each of the two kernel regions, from the arrays it finds to the array it leaves.

  A region runs its body at ten grid points; point `t` loads rows `5000 t … 5000 t + 4999` of the aggregated features
  and of the node features, the weights and the bias whole, and writes back rows `5000 t … 5000 t + 4999` of the result.
  Because the layer formula at `(p, q)` reads only row `p` of the two feature arrays, what point `t` writes back is
  block `t` of the formula applied to the whole arrays; the ten blocks tile the 50000 rows; so the region leaves the
  formula of the whole arrays. Everything is stated at arbitrary entry contents `V`, so that the run can instantiate
  it at each region's own entry.
-/
import proofs.«181914_j8761733284693_1_alg».proof.Proof.Gen.KernelIdeal.Frame
import proofs.«181914_j8761733284693_1_alg».proof.Proof.BodyValue
import Idealize.ShloMosaic.Lib.Pipeline.Value

set_option maxRecDepth 16384

noncomputable section

namespace Cert.KernelIdeal.SageRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-- Every access of the bodies starts at the origin of its buffer. -/
theorem origin_zero : (![0, 0] : Fin 2 → Nat) = fun _ => 0 := funext fun a => by fin_cases a <;> rfl

/-! ## Region 0: the hidden layer -/

section Region0
variable (V : (c : Dev nD) → (b : Ref sig .tc) → Buf (Elt Ideal) ((c : Thread nD τ).loc b))

/-- The printed index maps over the grid: the two row-blocked inputs and the output sit at block `t` of the rows, the
    weights and the bias at their one block. -/
theorem index_maps0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt0 (t : Fin cfg0.N) : t.val < 10 := lt_of_lt_of_eq t.isLt (show cfg0.N = 10 from N_0)

/-- Row `p` of block `t` is row `5000 t + p` of the array. -/
def row0 (t : Fin cfg0.N) (p : Fin 5000) : Fin 50000 := ⟨t.val * 5000 + p.val, by have := point_lt0 t; have := p.isLt; omega⟩

/-- The aggregated-features window's block `t` at `(p, k)` is the array at row `5000 t + p`. -/
theorem read0_0 (c : Dev nD) (t : Fin cfg0.N) (p : Fin 5000) (k : Fin 128) :
    iblk0 V c 0 t (ix2 p k) = V c main_v22 (ix2 (row0 t p) k) := by
  show V c main_v22 (((cfg0.win 0).blk t).view.emb (ix2 p k)) = V c main_v22 (ix2 (row0 t p) k)
  refine congrArg _ (funext fun a => Fin.ext ?_)
  obtain ⟨-, -, e0, e1, -⟩ := index_maps0 t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The node-features window's block `t` at `(p, k)` is the array at row `5000 t + p`. -/
theorem read0_1 (c : Dev nD) (t : Fin cfg0.N) (p : Fin 5000) (k : Fin 128) :
    iblk0 V c 1 t (ix2 p k) = V c main_arg0 (ix2 (row0 t p) k) := by
  show V c main_arg0 (((cfg0.win 1).blk t).view.emb (ix2 p k)) = V c main_arg0 (ix2 (row0 t p) k)
  refine congrArg _ (funext fun a => Fin.ext ?_)
  obtain ⟨-, -, -, -, e0, e1, -⟩ := index_maps0 t
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix is loaded whole at every point. -/
theorem read0_2 (c : Dev nD) (t : Fin cfg0.N) (q : Fin 128) (k : Fin 128) :
    iblk0 V c 2 t (ix2 q k) = V c main_arg2 (ix2 q k) := by
  show V c main_arg2 (((cfg0.win 2).blk t).view.emb (ix2 q k)) = V c main_arg2 (ix2 q k)
  refine congrArg _ (funext fun a => Fin.ext ?_)
  obtain ⟨-, -, -, -, -, -, e0, e1, -⟩ := index_maps0 t
  match a with
  | ⟨0, _⟩ => show win0_2.index t (0 : Fin 2) * 128 + 1 * q.val = q.val; omega
  | ⟨1, _⟩ => show win0_2.index t (1 : Fin 2) * 128 + 1 * k.val = k.val; omega

/-- The second weight matrix is loaded whole at every point. -/
theorem read0_3 (c : Dev nD) (t : Fin cfg0.N) (q : Fin 128) (k : Fin 128) :
    iblk0 V c 3 t (ix2 q k) = V c main_arg4 (ix2 q k) := by
  show V c main_arg4 (((cfg0.win 3).blk t).view.emb (ix2 q k)) = V c main_arg4 (ix2 q k)
  refine congrArg _ (funext fun a => Fin.ext ?_)
  obtain ⟨-, -, -, -, -, -, -, -, e0, e1, -⟩ := index_maps0 t
  match a with
  | ⟨0, _⟩ => show win0_3.index t (0 : Fin 2) * 128 + 1 * q.val = q.val; omega
  | ⟨1, _⟩ => show win0_3.index t (1 : Fin 2) * 128 + 1 * k.val = k.val; omega

/-- The bias row is loaded whole at every point. -/
theorem read0_4 (c : Dev nD) (t : Fin cfg0.N) (q : Fin 128) :
    iblk0 V c 4 t (ix2 (0 : Fin 1) q) = V c main_v23 (ix2 (0 : Fin 1) q) := by
  show V c main_v23 (((cfg0.win 4).blk t).view.emb (ix2 (0 : Fin 1) q)) = V c main_v23 (ix2 (0 : Fin 1) q)
  refine congrArg _ (funext fun a => Fin.ext ?_)
  obtain ⟨-, -, -, -, -, -, -, -, -, -, e0, e1⟩ := index_maps0 t
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

/-- Element `(p, q)` of the output's block `t` sits at row `5000 t + p`, column `q` of the array. -/
theorem out_emb0 (t : Fin cfg0.N) (p : Fin 5000) (q : Fin 128) :
    ((cfg0.win 5).blk t).view.emb (ix2 p q) = ix2 (row0 t p) q := by
  refine funext fun a => Fin.ext ?_
  obtain ⟨e0, e1, -⟩ := index_maps0 t
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of the layer formula of the arrays as the region finds them: the body at
    `(p, q)` is the pre-activation of the loaded blocks, each loaded row is a row of its array, and the formula reads
    only those rows. -/
theorem flushed0 (c : Dev nD) (t : Fin cfg0.N) :
    (dat0 V c).flushed 5 t = ((cfg0.win 5).blk t).view.read (Elt Ideal)
      (Cert.Sage.hidden (V c main_v22) (V c main_arg0) (V c main_arg2) (V c main_arg4) (V c main_v23)) := by
  show (cfg0.win 5).cut (grid0.coords t) ((dat0 V c).after 5 t) = _
  rw [after0_5]
  unfold out0_5
  rw [View.canon_unit_zero origin_zero]
  simp only [View.ld_unit_zero (S := S5000x128) origin_zero, View.ld_unit_zero (S := S128x128) origin_zero, View.ld_unit_zero (S := S1x128) origin_zero]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.hidden (V c main_v22) (V c main_arg0) (V c main_arg2) (V c main_arg4) (V c main_v23) (((cfg0.win 5).blk t).view.emb (ix2 p q))
  rw [out_emb0 t p q]
  refine (SageBody.hidden_body_apply (iblk0 V c 0 t) (iblk0 V c 1 t) (iblk0 V c 2 t) (iblk0 V c 3 t) (iblk0 V c 4 t) p q).trans ?_
  unfold Cert.Sage.hidden
  refine congrArg (max · _) ?_
  exact Cert.Sage.pre_congr (a' := 50000) (b' := 128) _ _ _ _ _ _ _ _ _ _ p (row0 t p) q q (read0_0 V c t p) (read0_1 V c t p)
    (read0_2 V c t q) (read0_3 V c t q) (read0_4 V c t q)

/-- An index of the output array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten blocks of 5000 rows cover the 50000 rows: row `r` is in block `r / 5000`. -/
theorem covered0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  have ht : t.val = (i 0).val / 5000 := rfl
  refine ⟨t, flush0_5 t, ?_⟩
  rw [mem_block0]
  obtain ⟨e0, e1, -⟩ := index_maps0 t
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE REGION'S RESULT: after its ten points the output array is the layer formula of the arrays as the region
    found them. -/
theorem final0 (c : Dev nD) : (dat0 V c).arrAt 5 cfg0.N
    = Cert.Sage.hidden (V c main_v22) (V c main_arg0) (V c main_arg2) (V c main_arg4) (V c main_v23) :=
  (dat0 V c).arrAt_eq_of_cover 5 _ (fun t _ => flushed0 V c t) covered0

end Region0

/-! ## Region 1: the output layer -/

section Region1
variable (V : (c : Dev nD) → (b : Ref sig .tc) → Buf (Elt Ideal) ((c : Thread nD τ).loc b))

/-- The printed index maps over the grid: the two row-blocked inputs and the output sit at block `t` of the rows, the
    weights and the bias at their one block. -/
theorem index_maps1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem point_lt1 (t : Fin cfg1.N) : t.val < 10 := lt_of_lt_of_eq t.isLt (show cfg1.N = 10 from N_1)

/-- Row `p` of block `t` is row `5000 t + p` of the array. -/
def row1 (t : Fin cfg1.N) (p : Fin 5000) : Fin 50000 := ⟨t.val * 5000 + p.val, by have := point_lt1 t; have := p.isLt; omega⟩

/-- The aggregated-features window's block `t` at `(p, k)` is the array at row `5000 t + p`. -/
theorem read1_0 (c : Dev nD) (t : Fin cfg1.N) (p : Fin 5000) (k : Fin 128) :
    iblk1 V c 0 t (ix2 p k) = V c main_v43 (ix2 (row1 t p) k) := by
  show V c main_v43 (((cfg1.win 0).blk t).view.emb (ix2 p k)) = V c main_v43 (ix2 (row1 t p) k)
  refine congrArg _ (funext fun a => Fin.ext ?_)
  obtain ⟨-, -, e0, e1, -⟩ := index_maps1 t
  match a with
  | ⟨0, _⟩ => show win1_0.index t (0 : Fin 2) * 5000 + 1 * p.val = t.val * 5000 + p.val; omega
  | ⟨1, _⟩ => show win1_0.index t (1 : Fin 2) * 128 + 1 * k.val = k.val; omega

/-- The node-features window's block `t` at `(p, k)` is the array at row `5000 t + p`. -/
theorem read1_1 (c : Dev nD) (t : Fin cfg1.N) (p : Fin 5000) (k : Fin 128) :
    iblk1 V c 1 t (ix2 p k) = V c main_v24 (ix2 (row1 t p) k) := by
  show V c main_v24 (((cfg1.win 1).blk t).view.emb (ix2 p k)) = V c main_v24 (ix2 (row1 t p) k)
  refine congrArg _ (funext fun a => Fin.ext ?_)
  obtain ⟨-, -, -, -, e0, e1, -⟩ := index_maps1 t
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix is loaded whole at every point. -/
theorem read1_2 (c : Dev nD) (t : Fin cfg1.N) (q : Fin 40) (k : Fin 128) :
    iblk1 V c 2 t (ix2 q k) = V c main_arg5 (ix2 q k) := by
  show V c main_arg5 (((cfg1.win 2).blk t).view.emb (ix2 q k)) = V c main_arg5 (ix2 q k)
  refine congrArg _ (funext fun a => Fin.ext ?_)
  obtain ⟨-, -, -, -, -, -, e0, e1, -⟩ := index_maps1 t
  match a with
  | ⟨0, _⟩ => show win1_2.index t (0 : Fin 2) * 40 + 1 * q.val = q.val; omega
  | ⟨1, _⟩ => show win1_2.index t (1 : Fin 2) * 128 + 1 * k.val = k.val; omega

/-- The second weight matrix is loaded whole at every point. -/
theorem read1_3 (c : Dev nD) (t : Fin cfg1.N) (q : Fin 40) (k : Fin 128) :
    iblk1 V c 3 t (ix2 q k) = V c main_arg7 (ix2 q k) := by
  show V c main_arg7 (((cfg1.win 3).blk t).view.emb (ix2 q k)) = V c main_arg7 (ix2 q k)
  refine congrArg _ (funext fun a => Fin.ext ?_)
  obtain ⟨-, -, -, -, -, -, -, -, e0, e1, -⟩ := index_maps1 t
  match a with
  | ⟨0, _⟩ => show win1_3.index t (0 : Fin 2) * 40 + 1 * q.val = q.val; omega
  | ⟨1, _⟩ => show win1_3.index t (1 : Fin 2) * 128 + 1 * k.val = k.val; omega

/-- The bias row is loaded whole at every point. -/
theorem read1_4 (c : Dev nD) (t : Fin cfg1.N) (q : Fin 40) :
    iblk1 V c 4 t (ix2 (0 : Fin 1) q) = V c main_v44 (ix2 (0 : Fin 1) q) := by
  show V c main_v44 (((cfg1.win 4).blk t).view.emb (ix2 (0 : Fin 1) q)) = V c main_v44 (ix2 (0 : Fin 1) q)
  refine congrArg _ (funext fun a => Fin.ext ?_)
  obtain ⟨-, -, -, -, -, -, -, -, -, -, e0, e1⟩ := index_maps1 t
  match a with
  | ⟨0, _⟩ => show win1_4.index t (0 : Fin 2) * 1 + 1 * (0 : Fin 1).val = (0 : Fin 1).val; omega
  | ⟨1, _⟩ => show win1_4.index t (1 : Fin 2) * 40 + 1 * q.val = q.val; omega

/-- Element `(p, q)` of the output's block `t` sits at row `5000 t + p`, column `q` of the array. -/
theorem out_emb1 (t : Fin cfg1.N) (p : Fin 5000) (q : Fin 40) :
    ((cfg1.win 5).blk t).view.emb (ix2 p q) = ix2 (row1 t p) q := by
  refine funext fun a => Fin.ext ?_
  obtain ⟨e0, e1, -⟩ := index_maps1 t
  match a with
  | ⟨0, _⟩ => show win1_5.index t (0 : Fin 2) * 5000 + 1 * p.val = t.val * 5000 + p.val; omega
  | ⟨1, _⟩ => show win1_5.index t (1 : Fin 2) * 40 + 1 * q.val = q.val; omega

/-- What point `t` writes back is block `t` of the layer formula of the arrays as the region finds them: the body at
    `(p, q)` is the pre-activation of the loaded blocks, each loaded row is a row of its array, and the formula reads
    only those rows. -/
theorem flushed1 (c : Dev nD) (t : Fin cfg1.N) :
    (dat1 V c).flushed 5 t = ((cfg1.win 5).blk t).view.read (Elt Ideal)
      (Cert.Sage.output (V c main_v43) (V c main_v24) (V c main_arg5) (V c main_arg7) (V c main_v44)) := by
  show (cfg1.win 5).cut (grid1.coords t) ((dat1 V c).after 5 t) = _
  rw [after1_5]
  unfold out1_5
  rw [View.canon_unit_zero origin_zero]
  simp only [View.ld_unit_zero (S := S5000x128) origin_zero, View.ld_unit_zero (S := S40x128) origin_zero, View.ld_unit_zero (S := S1x40) origin_zero]
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Sage.output (V c main_v43) (V c main_v24) (V c main_arg5) (V c main_arg7) (V c main_v44) (((cfg1.win 5).blk t).view.emb (ix2 p q))
  rw [out_emb1 t p q]
  refine (SageBody.output_body_apply (iblk1 V c 0 t) (iblk1 V c 1 t) (iblk1 V c 2 t) (iblk1 V c 3 t) (iblk1 V c 4 t) p q).trans ?_
  unfold Cert.Sage.output

  exact Cert.Sage.pre_congr (a' := 50000) (b' := 40) _ _ _ _ _ _ _ _ _ _ p (row1 t p) q q (read1_0 V c t p) (read1_1 V c t p)
    (read1_2 V c t q) (read1_3 V c t q) (read1_4 V c t q)

/-- An index of the output array is in point `t`'s block iff each coordinate is in the block's range on its axis. -/
theorem mem_block1 (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v45).slice (win1_5.rect t)).set ↔ _
  rw [View.set_slice_whole, Rect.mem_set_unit]
  exact Iff.rfl

/-- The ten blocks of 5000 rows cover the 50000 rows: row `r` is in block `r / 5000`. -/
theorem covered1 (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  let t : Fin cfg1.N := ⟨(i 0).val / 5000, by rw [show cfg1.N = 10 from N_1]; omega⟩
  have ht : t.val = (i 0).val / 5000 := rfl
  refine ⟨t, flush1_5 t, ?_⟩
  rw [mem_block1]
  obtain ⟨e0, e1, -⟩ := index_maps1 t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- THE REGION'S RESULT: after its ten points the output array is the layer formula of the arrays as the region
    found them. -/
theorem final1 (c : Dev nD) : (dat1 V c).arrAt 5 cfg1.N
    = Cert.Sage.output (V c main_v43) (V c main_v24) (V c main_arg5) (V c main_arg7) (V c main_v44) :=
  (dat1 V c).arrAt_eq_of_cover 5 _ (fun t _ => flushed1 V c t) covered1

end Region1

end Cert.KernelIdeal.SageRegion

end
-- ==== Proof.HostMean.lean ====
/-
  The mean aggregation over in-edges, as ONE function of a feature array and the edge list.

  Both programs compute it on the host with the same operations: the sources (row 0 of the edge list) index a gather of
  feature rows, negative sources wrapped by the node count first; the gathered rows are summed into their targets (row 1)
  by a scatter-add from zero; ones are scatter-added the same way to count the in-edges of each node; the sums are
  divided by the counts, a count below one raised to one. Nothing in the certificate needs to know what a gather or a
  scatter-add computes: both programs apply this same function — the first layer to the input features, the second to
  the hidden features — so it is named once here and never opened.
-/
import proofs.«181914_j8761733284693_1_alg».proof.Proof.Gen.KernelIdeal
import Idealize.ShloMosaic.PureOps.Ideal
import proofs.«181914_j8761733284693_1_alg».proof.Proof.SageSpec

noncomputable section

namespace Cert.KernelIdeal.SageHost

open Cert.KernelIdeal Cert.KernelIdeal.Gen Idealize.ShloMosaic

/-- The edges' source nodes: row 0 of the edge list, as a vector. -/
def sources (edges : (⟨S2x800000, .i32⟩ : BufTy).Contents (Elt Ideal)) : (⟨S800000, .i32⟩ : BufTy).Contents (Elt Ideal) :=
  shapeCast _ (extractStridedSlice S1x800000 ![0, 0] edges slices_S2x800000_S1x800000_0_0) shapeCasts_S1x800000_S800000

/-- The edges' target nodes: row 1 of the edge list, as a vector. -/
def targets (edges : (⟨S2x800000, .i32⟩ : BufTy).Contents (Elt Ideal)) : (⟨S800000, .i32⟩ : BufTy).Contents (Elt Ideal) :=
  shapeCast _ (extractStridedSlice S1x800000 ![1, 0] edges slices_S2x800000_S1x800000_1_0) shapeCasts_S1x800000_S800000

/-- For each node, the sum of the feature rows of its in-neighbours divided by the larger of their number and one. -/
def meanAgg (feat : (⟨S50000x128, .f32⟩ : BufTy).Contents (Elt Ideal)) (edges : (⟨S2x800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (targets edges))
      (Host.gather gather_S50000x128_S800000x1_S800000x128_1_0_n_n_0_1_1128 feat
        (broadcastInDim S800000x1 ![0] bcast_S800000_S800000x1_0
          (select (cmpi .slt (sources edges) (broadcastInDim S800000 ![] bcast_S_S800000 (constantI S_ 32 0#32)))
            (addi (sources edges) (broadcastInDim S800000 ![] bcast_S_S800000 (constantI S_ 32 50000#32)))
            (sources edges)))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (targets edges))
            (broadcastInDim S800000 ![] bcast_S_S800000 (constant (F := Ideal) S_ .f32 0x3F800000#32)))
          (broadcastInDim S50000 ![] bcast_S_S50000 (constant (F := Ideal) S_ .f32 0x3F800000#32)))))

/-- THE WHOLE FORWARD PASS as a function of the eight argument arrays: the hidden layer of the aggregated and the own
    input features, then the output layer of the aggregated and the own hidden features. Both programs end at this. -/
def forward (x : (⟨S50000x128, .f32⟩ : BufTy).Contents (Elt Ideal)) (edges : (⟨S2x800000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal)) (w2l : (⟨S40x128, .f32⟩ : BufTy).Contents (Elt Ideal))
    (b2 : (⟨S40, .f32⟩ : BufTy).Contents (Elt Ideal)) (w2r : (⟨S40x128, .f32⟩ : BufTy).Contents (Elt Ideal)) :
    (⟨S50000x40, .f32⟩ : BufTy).Contents (Elt Ideal) :=
  Cert.Sage.output
    (meanAgg (Cert.Sage.hidden (meanAgg x edges) x w1l w1r (Cert.Sage.asRow b1)) edges)
    (Cert.Sage.hidden (meanAgg x edges) x w1l w1r (Cert.Sage.asRow b1))
    w2l w2r (Cert.Sage.asRow b2)

end Cert.KernelIdeal.SageHost

end
-- ==== Proof.KernelRun.lean ====
/-
  The kernel program's result as one term of its arguments.

  @main is four segments: a stretch of host operations (the first aggregation, the bias as a row), the first kernel
  region, a second stretch (the second aggregation, of the hidden features, and the second bias row) and the second
  kernel region. The buffer contents at each boundary are a fold from the launch memory; reading the fold back at the
  result buffer gives
      output (meanAgg H edges) H W2l W2r (b2 as a row),   H = hidden (meanAgg x edges) x W1l W1r (b1 as a row),
  each region contributing its layer formula of the arrays it finds, each host stretch the aggregation and the row cast.
  The run itself is the several-region launch theorem applied to the generated segments, with the final state read at
  every unscoped buffer — the result buffer among them — instead of at the arguments only.
-/
import proofs.«181914_j8761733284693_1_alg».proof.Proof.Gen.KernelIdeal.Frame
import proofs.«181914_j8761733284693_1_alg».proof.Proof.RegionValue
import proofs.«181914_j8761733284693_1_alg».proof.Proof.HostMean
import Idealize.ShloMosaic.Lib.StableHlo.Run

set_option maxRecDepth 16384

noncomputable section

namespace Cert.KernelIdeal.SageRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal.SageHost

variable (m : (ℓ : Loc nD τ sig) → Buf (Elt Ideal) ℓ) (ρ : Dev nD → PrngReg)

/-! ## The first region's entry: what the first host stretch leaves -/

/-- The aggregated input features. -/
theorem entry0_agg (c : Dev nD) :
    V1 m ρ c main_v22 = meanAgg (m ((c : Thread nD τ).loc main_arg0)) (m ((c : Thread nD τ).loc main_arg1)) := by
  dsimp only [V1, W1, hostOps0]
  after_results_simp <;> rfl

theorem entry0_x (c : Dev nD) : V1 m ρ c main_arg0 = m ((c : Thread nD τ).loc main_arg0) := by
  dsimp only [V1, W1, hostOps0]
  after_results_simp <;> rfl

theorem entry0_wl (c : Dev nD) : V1 m ρ c main_arg2 = m ((c : Thread nD τ).loc main_arg2) := by
  dsimp only [V1, W1, hostOps0]
  after_results_simp <;> rfl

theorem entry0_wr (c : Dev nD) : V1 m ρ c main_arg4 = m ((c : Thread nD τ).loc main_arg4) := by
  dsimp only [V1, W1, hostOps0]
  after_results_simp <;> rfl

/-- The first bias as a row. -/
theorem entry0_bias (c : Dev nD) : V1 m ρ c main_v23 = Cert.Sage.asRow (m ((c : Thread nD τ).loc main_arg3)) := by
  dsimp only [V1, W1, hostOps0]
  after_results_simp
  exact Cert.Sage.shapeCast_row _ _

/-! ## The hidden features: what the first region leaves -/

/-- The hidden-features array at the first region's exit. -/
abbrev hiddenArr (c : Dev nD) : (⟨S50000x128, .f32⟩ : BufTy).Contents (Elt Ideal) :=
  Cert.Sage.hidden (meanAgg (m ((c : Thread nD τ).loc main_arg0)) (m ((c : Thread nD τ).loc main_arg1))) (m ((c : Thread nD τ).loc main_arg0)) (m ((c : Thread nD τ).loc main_arg2)) (m ((c : Thread nD τ).loc main_arg4))
    (Cert.Sage.asRow (m ((c : Thread nD τ).loc main_arg3)))

theorem exit0 (c : Dev nD) : W2 m ρ c (Proc.devRef .tc main_v24) = hiddenArr m c := by
  refine (W2_arr m ρ c 5).trans ((SageRegion.final0 (V1 m ρ) c).trans ?_)
  rw [entry0_agg, entry0_x, entry0_wl, entry0_wr, entry0_bias]

/-! ## The second region's entry: what the second host stretch leaves -/

/-- The aggregated hidden features: the same aggregation, of what the first region left, along the same edges (the
    edge endpoints were computed by the first stretch and no region touches them). -/
theorem entry1_agg (c : Dev nD) :
    V3 m ρ c main_v43 = meanAgg (hiddenArr m c) (m ((c : Thread nD τ).loc main_arg1)) := by
  dsimp only [V3, W3, hostOps1]
  after_results_simp
  rw [W2_of_ne m ρ c main_v1 (by decide), W2_of_ne m ρ c main_v3 (by decide), exit0]
  dsimp only [W1, hostOps0]
  after_results_simp <;> rfl

theorem entry1_h (c : Dev nD) : V3 m ρ c main_v24 = hiddenArr m c := by
  dsimp only [V3, W3, hostOps1]
  after_results_simp
  exact exit0 m ρ c

theorem entry1_wl (c : Dev nD) : V3 m ρ c main_arg5 = m ((c : Thread nD τ).loc main_arg5) := by
  dsimp only [V3, W3, hostOps1]
  after_results_simp
  rw [W2_of_ne m ρ c main_arg5 (by decide)]
  dsimp only [W1, hostOps0]
  after_results_simp <;> rfl

theorem entry1_wr (c : Dev nD) : V3 m ρ c main_arg7 = m ((c : Thread nD τ).loc main_arg7) := by
  dsimp only [V3, W3, hostOps1]
  after_results_simp
  rw [W2_of_ne m ρ c main_arg7 (by decide)]
  dsimp only [W1, hostOps0]
  after_results_simp <;> rfl

/-- The second bias as a row. -/
theorem entry1_bias (c : Dev nD) : V3 m ρ c main_v44 = Cert.Sage.asRow (m ((c : Thread nD τ).loc main_arg6)) := by
  dsimp only [V3, W3, hostOps1]
  after_results_simp
  rw [W2_of_ne m ρ c main_arg6 (by decide)]
  dsimp only [W1, hostOps0]
  after_results_simp
  exact Cert.Sage.shapeCast_row _ _

/-! ## The result buffer at the last boundary -/

/-- THE KERNEL PROGRAM'S RESULT: at the last boundary the result buffer holds the forward function of the arguments. -/
theorem result_eq (c : Dev nD) :
    W4 m ρ c (Proc.devRef .tc main_v45)
      = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((SageRegion.final1 (V3 m ρ) c).trans ?_)
  rw [entry1_agg, entry1_h, entry1_wl, entry1_wr, entry1_bias]
  rfl

/-! ## The run -/

set_option backward.isDefEq.respectTransparency.types false in
/-- From any memory with zero counters every weakly fair execution of @main terminates, nothing faulting, with every
    unscoped buffer at the last boundary's contents: the several-region launch theorem over the generated segments, the
    last thread state read against the final state at every unscoped buffer. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE KERNEL PROGRAM'S RUN: it terminates with the result buffer at the forward function of the arguments and the
    arguments unchanged. -/
theorem run : θ_run defs (onTc (τ := τ) (main (F := Ideal))) ⟨m, fun _ => 0, ρ⟩ (fun r => ∀ c : Dev nD,
      r.2.mem ((c.tc : Thread nD τ).loc main_v45)
        = forward (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v45 (by decide))).trans (result_eq m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_boundary m ρ)

end Cert.KernelIdeal.SageRun

end
-- ==== Proof.RefValue.lean ====
/-
  The reference program's result as the same term of its arguments.

  Read one operation at a time, the reference's first layer is: the mean aggregation of the input features; its product
  with the transposed first weight matrix; plus the bias broadcast down the rows; plus the product of the input
  features with the transposed second weight matrix; cut off below at zero. At node `p` and feature `q` the two
  products are the row products of the layer formula (a transposed matrix read at `(k, q)` is the matrix at `(q, k)`),
  and the bias, added in the middle rather than last, is moved by commutativity and associativity of addition on the
  extended reals. The second layer is the same with the hidden features in place of the input features and no cut-off.
  The aggregation stages are, operation for operation, the shared function `meanAgg`.
-/
import proofs.«181914_j8761733284693_1_alg».proof.Proof.Gen.ReferenceIdeal.Read
import proofs.«181914_j8761733284693_1_alg».proof.Proof.HostMean
import proofs.«181914_j8761733284693_1_alg».proof.Proof.SageSpec
import Idealize.ShloMosaic.Lib.ValueIdx

noncomputable section

open scoped BigOperators

namespace Cert.ReferenceIdeal.SageRef

open Cert.ReferenceIdeal Cert.ReferenceIdeal.Gen Cert.ReferenceIdeal.Read Idealize.ShloMosaic Idealize.ShloMosaic.ValueIdx
open Cert.KernelIdeal.SageHost (meanAgg)

/-! ## The aggregation stages are the shared function -/

/-- The first aggregation, operation for operation. -/
theorem agg_input (x0 : (⟨S50000x128, .f32⟩ : BufTy).Contents (Elt Ideal)) (x1 : (⟨S2x800000, .i32⟩ : BufTy).Contents (Elt Ideal)) :
    val_main_v22 (F := Ideal) x0 x1 = meanAgg x0 x1 := rfl

/-- The second aggregation, of the hidden features, operation for operation. -/
theorem agg_hidden (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4 = meanAgg (val_main_v31 (F := Ideal) x0 x1 x2 x3 x4) x1 := rfl

/-! ## The operations' index maps, by coordinates -/

theorem left_first (i : S50000x128.Idx) (k : Fin 128) : lidx_main_v24 i k = (ix2 (i 0 : Fin 50000) k : S50000x128.Idx) :=
  funext fun a => Fin.ext (by match a with | ⟨0, _⟩ => rfl | ⟨1, _⟩ => rfl)
theorem right_first (i : S50000x128.Idx) (k : Fin 128) : idx_main_v23 (ridx_main_v24 i k) = (ix2 (i 1 : Fin 128) k : S128x128.Idx) :=
  funext fun a => Fin.ext (by match a with | ⟨0, _⟩ => rfl | ⟨1, _⟩ => rfl)
theorem left_self_first (i : S50000x128.Idx) (k : Fin 128) : lidx_main_v29 i k = (ix2 (i 0 : Fin 50000) k : S50000x128.Idx) :=
  funext fun a => Fin.ext (by match a with | ⟨0, _⟩ => rfl | ⟨1, _⟩ => rfl)
theorem right_self_first (i : S50000x128.Idx) (k : Fin 128) : idx_main_v28 (ridx_main_v29 i k) = (ix2 (i 1 : Fin 128) k : S128x128.Idx) :=
  funext fun a => Fin.ext (by match a with | ⟨0, _⟩ => rfl | ⟨1, _⟩ => rfl)
theorem left_second (i : S50000x40.Idx) (k : Fin 128) : lidx_main_v52 i k = (ix2 (i 0 : Fin 50000) k : S50000x128.Idx) :=
  funext fun a => Fin.ext (by match a with | ⟨0, _⟩ => rfl | ⟨1, _⟩ => rfl)
theorem right_second (i : S50000x40.Idx) (k : Fin 128) : idx_main_v51 (ridx_main_v52 i k) = (ix2 (i 1 : Fin 40) k : S40x128.Idx) :=
  funext fun a => Fin.ext (by match a with | ⟨0, _⟩ => rfl | ⟨1, _⟩ => rfl)
theorem left_self_second (i : S50000x40.Idx) (k : Fin 128) : lidx_main_v57 i k = (ix2 (i 0 : Fin 50000) k : S50000x128.Idx) :=
  funext fun a => Fin.ext (by match a with | ⟨0, _⟩ => rfl | ⟨1, _⟩ => rfl)
theorem right_self_second (i : S50000x40.Idx) (k : Fin 128) : idx_main_v56 (ridx_main_v57 i k) = (ix2 (i 1 : Fin 40) k : S40x128.Idx) :=
  funext fun a => Fin.ext (by match a with | ⟨0, _⟩ => rfl | ⟨1, _⟩ => rfl)
theorem bias_first (i : S50000x128.Idx) : idx_main_v25 (idx_main_v26 i) = (ix1 (i 1 : Fin 128) : S128.Idx) :=
  funext fun a => Fin.ext (by match a with | ⟨0, _⟩ => rfl)
theorem bias_second (i : S50000x40.Idx) : idx_main_v53 (idx_main_v54 i) = (ix1 (i 1 : Fin 40) : S40.Idx) :=
  funext fun a => Fin.ext (by match a with | ⟨0, _⟩ => rfl)

/-! ## The two layers -/

/-- The reference's hidden features are the hidden-layer formula of the aggregated and the own input features. -/
theorem hidden_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = Cert.Sage.hidden (meanAgg x0 x1) x0 x2 x4 (Cert.Sage.asRow x3) := by
  funext i
  rw [val_main_v31_apply, val_main_v30_apply, val_main_v27_apply, val_main_v24_apply, val_main_v29_apply, val_main_v26_apply,
    val_main_v25_apply, val_main_call0_v0_apply, val_main_call0_cst_apply]
  simp only [val_main_v23_apply, val_main_v28_apply, left_first, right_first, left_self_first, right_self_first, bias_first, agg_input]
  exact congrArg (fun z : EReal => max z (Ideal.ofBits .f32 0x00000000#32))
    (Cert.Sage.pre_bias_first (meanAgg x0 x1) x0 x2 x4 (Cert.Sage.asRow x3) (i 0) (i 1))

/-- The reference's result is the output-layer formula of the aggregated and the own hidden features. -/
theorem output_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S40x128, .f32⟩ : BufTy).Contents (Elt Ideal)) (x6 : (⟨S40, .f32⟩ : BufTy).Contents (Elt Ideal)) (x7 : (⟨S40x128, .f32⟩ : BufTy).Contents (Elt Ideal)) :
    val_main_v58 (F := Ideal) x0 x1 x2 x3 x4 x5 x6 x7
      = Cert.Sage.output (meanAgg (val_main_v31 (F := Ideal) x0 x1 x2 x3 x4) x1) (val_main_v31 (F := Ideal) x0 x1 x2 x3 x4) x5 x7 (Cert.Sage.asRow x6) := by
  funext i
  rw [val_main_v58_apply, val_main_v55_apply, val_main_v52_apply, val_main_v57_apply, val_main_v54_apply, val_main_v53_apply]
  simp only [val_main_v51_apply, val_main_v56_apply, left_second, right_second, left_self_second, right_self_second, bias_second, agg_hidden]
  exact Cert.Sage.pre_bias_first (meanAgg (val_main_v31 (F := Ideal) x0 x1 x2 x3 x4) x1) (val_main_v31 (F := Ideal) x0 x1 x2 x3 x4) x5 x7 (Cert.Sage.asRow x6) (i 0) (i 1)

/-- THE REFERENCE'S RESULT is the forward function of its arguments. -/
theorem result_eq (m : (ℓ : Loc nD τ sig) → Buf (Elt Ideal) ℓ) (c : Dev nD) :
    Cert.ReferenceIdeal.Value.res_main_v58 m c
      = Cert.KernelIdeal.SageHost.forward (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [val_main_v58_eq, output_eq, hidden_eq]
  rfl

end Cert.ReferenceIdeal.SageRef

end
-- ==== Proof.lean ====
/-
  Two-layer GraphSAGE with mean aggregation: a Pallas kernel for the per-node linear transforms against the plain jnp
  reference, equal on the extended reals.

  Both programs compute, for the node features `x` (50000 × 128) and the edge list (2 × 800000),
      H   = max (mean(x) · W1lᵀ + x · W1rᵀ + b1, 0)          (50000 × 128)
      out =      mean(H) · W2lᵀ + H · W2rᵀ + b2               (50000 × 40)
  where `mean(F)` sums, for each node, the rows of `F` at the sources of its in-edges (a gather and a scatter-add on the
  host) and divides by the number of in-edges, at least one. The kernel program does the two aggregations on the host,
  exactly as the reference does, and each linear transform in a kernel region that walks the nodes in ten blocks of 5000
  rows, multiplying each block (rounded to bf16, the identity on extended reals) by the two weight matrices, adding the
  products and then the bias. The reference adds the bias between the two products.

  The proof names the aggregation once as a function (`meanAgg`, never opened) and the whole forward pass as one term
  of the eight arguments (`forward`). The kernel side: each region leaves the layer formula of the arrays it finds —
  the body at an element is the formula of the loaded blocks, a loaded row is a row of its array, the ten blocks tile
  the rows — and the run's boundary contents, read back at the result buffer, compose to `forward`. The reference
  side: its operations read one at a time are the same formulas with the bias added in the middle, which commutativity
  and associativity of addition on the extended reals move to the end. No finiteness of the inputs is needed: no
  product is distributed over a sum and nothing is cancelled. The ideal pass rewrote nothing, so `preserves` is trivial.
-/
import proofs.«181914_j8761733284693_1_alg».proof.Defs
import proofs.«181914_j8761733284693_1_alg».proof.Proof.Gen.Kernel
import proofs.«181914_j8761733284693_1_alg».proof.Proof.Gen.Kernel.Skeleton
import proofs.«181914_j8761733284693_1_alg».proof.Proof.Gen.Kernel.Launch
import proofs.«181914_j8761733284693_1_alg».proof.Proof.Gen.Kernel.Points
import proofs.«181914_j8761733284693_1_alg».proof.Proof.Gen.Kernel.Frame
import proofs.«181914_j8761733284693_1_alg».proof.Proof.Gen.KernelIdeal
import proofs.«181914_j8761733284693_1_alg».proof.Proof.Gen.KernelIdeal.Skeleton
import proofs.«181914_j8761733284693_1_alg».proof.Proof.Gen.KernelIdeal.Launch
import proofs.«181914_j8761733284693_1_alg».proof.Proof.Gen.KernelIdeal.Points
import proofs.«181914_j8761733284693_1_alg».proof.Proof.Gen.KernelIdeal.Frame
import proofs.«181914_j8761733284693_1_alg».proof.Proof.Gen.ReferenceIdeal
import proofs.«181914_j8761733284693_1_alg».proof.Proof.Gen.ReferenceIdeal.Run
import proofs.«181914_j8761733284693_1_alg».proof.Proof.Gen.ReferenceIdeal.Read
import proofs.«181914_j8761733284693_1_alg».proof.Proof.Gen.Pre_finite_inputs
import proofs.«181914_j8761733284693_1_alg».proof.Proof.KernelRun
import proofs.«181914_j8761733284693_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at the forward function of the
    (same) arguments. -/
theorem algebraic : Cert.algebraic_KernelIdeal_ReferenceIdeal := by
  intro m ρ m' ρ' _ hagree
  refine ⟨fun c => Cert.KernelIdeal.SageHost.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.SageRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.SageRef.result_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
